-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S2000x128 : Shape := ⟨2, ![2000, 128]⟩
abbrev S2000x64 : Shape := ⟨2, ![2000, 64]⟩
abbrev S200x10000 : Shape := ⟨2, ![200, 10000]⟩
abbrev S200x64 : Shape := ⟨2, ![200, 64]⟩
abbrev S200 : Shape := ⟨1, ![200]⟩
abbrev S200x1 : Shape := ⟨2, ![200, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S10000x64, .f32⟩
  | .hbm, ⟨9, _⟩ => ⟨S10000x64, .f32⟩
  | .hbm, ⟨10, _⟩ => ⟨S10000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S200x10000, .f32⟩
  | .local _ .vmem, ⟨6, _⟩ => ⟨S200x10000, .f32⟩
  | .local _ .vmem, ⟨7, _⟩ => ⟨S10000x64, .f32⟩
  | .local _ .vmem, ⟨8, _⟩ => ⟨S1x64, .f32⟩
  | .local _ .vmem, ⟨9, _⟩ => ⟨S64x64, .f32⟩
  | .local _ .vmem, ⟨10, _⟩ => ⟨S200x64, .f32⟩
  | .local _ .vmem, ⟨11, _⟩ => ⟨S200x64, .f32⟩
  | .local _ .vmem, ⟨12, _⟩ => ⟨S200x10000, .f32⟩
  | .local _ .vmem, ⟨13, _⟩ => ⟨S200x10000, .f32⟩
  | .local _ .vmem, ⟨14, _⟩ => ⟨S10000x64, .f32⟩
  | .local _ .vmem, ⟨15, _⟩ => ⟨S1x64, .f32⟩
  | .local _ .vmem, ⟨16, _⟩ => ⟨S200x64, .f32⟩
  | .local _ .vmem, ⟨17, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x64_S64x64_0_0 : ∀ a, (![0, 0] : Fin 2 → Nat) a + S64x64.size a ≤ S64x64.size a
  h_S64x64 : 0 < S64x64.numel
  inb_S200x64_S200x64_0_0 : ∀ a, (![0, 0] : Fin 2 → Nat) a + S200x64.size a ≤ S200x64.size a
  h_S200x64 : 0 < S200x64.numel
  reduces_S200x64_S200 : S200x64.Reduces [1] S200
  shapeCasts_S200_S200x1 : S200.ShapeCasts S200x1
  broadcasts_S200x1_S200x64 : S200x1.Broadcasts S200x64
  dot_S2000x128_S128x64_S2000x64_1_0_0_1_n_n_wf : DotDims.WF S2000x128 S128x64 S2000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .f32 = 32 ∨ (Rect.block (s := S10000x64) S200x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x64.size a ≤ S10000x64.size a
  hwx2_3 : ∀ i : grid2.Coords, EltTy.bits .f32 = 32 ∨ (Rect.block (s := S10000x64) S200x64.size (cc2_transform_3 i) (hinb2_3 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S200x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.LibTypedRefs.lean ====
/- A general fact about typed references to host buffers. An operation of an inlined module-local function is stated at
   the tensor value's type and moved to its buffer's type, and back, by transport along the equation between the two
   types. Moving a value to the buffer's type and back gives the value: the two transports of ONE typed reference cancel,
   whatever the reference, the signature and the element values. A composed host value in which every result of an
   inlined operation is consumed by another inlined operation loses all its transports by rewriting with this one
   equation; what is left are the transports at buffers where an inlined operation meets an operation of the main
   function, each the identity at a literal reference (by rfl, one buffer at a time, over a variable value).
   Nothing here depends on a particular program. -/
import Idealize.ShloMosaic.Lib.StableHlo

namespace Cert.Lib.TypedRefs

open Idealize.ShloMosaic Idealize.ShloMosaic.StableHlo

/-- Moving a value to a typed reference's buffer type and back gives the value. -/
theorem ofBuf_toBuf {sig : RefSig} {Val : EltTy → Type} {T : BufTy} (x : TRef sig T) (v : T.Contents Val) :
    x.ofBuf (x.toBuf v) = v := by
  obtain ⟨r, h, _, _⟩ := x; subst h; rfl

/-- Moving a buffer's contents to the value's type and back gives the contents. -/
theorem toBuf_ofBuf {sig : RefSig} {Val : EltTy → Type} {T : BufTy} (x : TRef sig T) (v : x.ref.ty.Contents Val) :
    x.toBuf (x.ofBuf v) = v := by
  obtain ⟨r, h, _, _⟩ := x; subst h; rfl

end Cert.Lib.TypedRefs
-- ==== Proof.RefCasts.lean ====
/- The reference's outlined functions (relu, log_softmax) are inlined over typed references: each operation's function
   is stated at the tensor value's type and moved to its buffer's type by a transport along the equation between the
   two. Here: the two transports of one typed reference cancel, and at the four buffers where an inlined operation meets
   an operation of the main function itself (the pre-activation and the activation of layer one, the logits, the
   result) the transport is the identity. With these a composed reference value is free of transports. -/
import proofs.«149217_g27290222198914_cont_9to1_1311_3_alg».proof.Proof.Gen.ReferenceIdeal
import proofs.«149217_g27290222198914_cont_9to1_1311_3_alg».proof.Proof.LibTypedRefs
import Idealize.ShloMosaic.Lib.StableHlo.Run

noncomputable section

namespace Cert.ReferenceIdeal.Casts

open Cert.ReferenceIdeal Cert.ReferenceIdeal.Gen Idealize.ShloMosaic Idealize.ShloMosaic.TcCoe Idealize.SL.Sem Idealize.ShloMosaic.StableHlo

variable {F : FTy → Type} [FloatOps F]

/-- Moving a value to a typed reference's buffer type and back gives the value. -/
theorem ofBuf_toBuf {T : BufTy} (x : TRef sig T) (v : T.Contents (Elt F)) : x.ofBuf (x.toBuf v) = v :=
  Cert.Lib.TypedRefs.ofBuf_toBuf x v

/-- The buffer of layer one's pre-activation has the value's own type: the transport is the identity. -/
theorem ofBuf_main_v4 (v : (⟨S10000x64, .f32⟩ : BufTy).Contents (Elt F)) :
    (TRef.of (T := ⟨S10000x64, .f32⟩) main_v4).ofBuf (Val := Elt F) v = v := rfl
/-- The same for the logits' buffer, -/
theorem ofBuf_main_v10 (v : (⟨S10000x64, .f32⟩ : BufTy).Contents (Elt F)) :
    (TRef.of (T := ⟨S10000x64, .f32⟩) main_v10).ofBuf (Val := Elt F) v = v := rfl
/-- for the activation's buffer, -/
theorem toBuf_main_v5 (v : (⟨S10000x64, .f32⟩ : BufTy).Contents (Elt F)) :
    (TRef.of (T := ⟨S10000x64, .f32⟩) main_v5).toBuf (Val := Elt F) v = v := rfl
/-- and for the result's buffer. -/
theorem toBuf_main_v11 (v : (⟨S10000x64, .f32⟩ : BufTy).Contents (Elt F)) :
    (TRef.of (T := ⟨S10000x64, .f32⟩) main_v11).toBuf (Val := Elt F) v = v := rfl

end Cert.ReferenceIdeal.Casts

end
-- ==== Proof.Spec.lean ====
/- The two-layer graph convolution with a row-wise log-softmax, as functions of whole arrays on the extended reals.

   Layer by layer: a matrix product `mm l r` (entry (p, c) the sum over k of l(p, k) · r(k, c)); a bias row added to
   every row (`addBias`); the rectifier (`relu`: the maximum with zero); and, for a matrix of logits z, the row maximum
   M(p) (the maximum over the row's entries, taken from the bottom), the row's exponential sum
   S(p) = Σ_k exp(z(p, k) − M(p)), and the log-softmax in two arrangements of one formula:
     `lsmShift`  (z(p, c) − M(p)) − log S(p)        subtract the maximum first, then the logarithm of the sum;
     `lsmLse`    z(p, c) − (log S(p) + M(p))        subtract the whole log-sum-exp at once.
   On the extended reals the two agree wherever the logits and the row maximum are real numbers (`lsm_eq`): for real z and
   M and ANY extended-real L, (z − M) − L = z − (L + M); with an infinite logit the two sides could differ
   (∞ − ∞ is −∞ here), which is why finiteness of the inputs is used. A row maximum of real entries over a non-empty
   row is real, being one of them (`rowMax_real`). Real arrays stay real under product, bias and rectifier
   (`mm_real`, `addBias_real`, `relu_real`): a finite sum of products of reals is real. -/
import Mathlib.Data.EReal.Basic
import Mathlib.Data.EReal.Operations
import Idealize.ShloMosaic.PureOps.Ideal
import Idealize.ShloMosaic.Lib.ValueIdx

noncomputable section

open scoped BigOperators

open Idealize.ShloMosaic Idealize.ShloMosaic.ValueIdx

namespace Cert.Gcn

/-- A matrix of extended reals with `a` rows and `b` columns. -/
abbrev Mat (a b : ℕ) : Type := FVec Ideal ⟨2, ![a, b]⟩ .f32

/-- The row coordinate of a matrix index, typed by the literal extent. -/
abbrev row {a b : ℕ} (i : (⟨2, ![a, b]⟩ : Shape).Idx) : Fin a := ⟨(i 0).val, idx2_lt0 i⟩
/-- The column coordinate of a matrix index, typed by the literal extent. -/
abbrev col {a b : ℕ} (i : (⟨2, ![a, b]⟩ : Shape).Idx) : Fin b := ⟨(i 1).val, idx2_lt1 i⟩

theorem eq_ix2_row_col {a b : ℕ} (i : (⟨2, ![a, b]⟩ : Shape).Idx) : i = ix2 (row i) (col i) := eq_ix2 i

/-- The matrix product: entry (p, c) is the sum over k of l(p, k) · r(k, c). -/
def mm {M K N : ℕ} (l : Mat M K) (r : Mat K N) : Mat M N :=
  fun i => ∑ k : Fin K, l (ix2 (row i) k) * r (ix2 k (col i))

theorem mm_ix2 {M K N : ℕ} (l : Mat M K) (r : Mat K N) (p : Fin M) (c : Fin N) :
    mm l r (ix2 p c) = ∑ k : Fin K, l (ix2 p k) * r (ix2 k c) := rfl

/-- A bias row added to every row of a matrix. -/
def addBias {M N : ℕ} (a : Mat M N) (b : Fin N → EReal) : Mat M N := fun i => a i + b (col i)

theorem addBias_ix2 {M N : ℕ} (a : Mat M N) (b : Fin N → EReal) (p : Fin M) (c : Fin N) :
    addBias a b (ix2 p c) = a (ix2 p c) + b c := rfl

/-- The rectifier: the maximum with zero, entry by entry. -/
def relu {M N : ℕ} (a : Mat M N) : Mat M N := fun i => max (a i) 0

theorem relu_ix2 {M N : ℕ} (a : Mat M N) (p : Fin M) (c : Fin N) : relu a (ix2 p c) = max (a (ix2 p c)) 0 := rfl

/-- The maximum of row p's entries, taken from the bottom. -/
def rowMax {M N : ℕ} (z : Mat M N) (p : Fin M) : EReal :=
  (Finset.univ : Finset (Fin N)).fold max ⊥ fun k => z (ix2 p k)

/-- The sum over row p of the exponentials of the entries less the row maximum. -/
def expSum {M N : ℕ} (z : Mat M N) (p : Fin M) : EReal :=
  ∑ k : Fin N, Ideal.exp (z (ix2 p k) - rowMax z p)

/-- Log-softmax, the maximum subtracted first: (z(p, c) − M(p)) − log S(p). -/
def lsmShift {M N : ℕ} (z : Mat M N) : Mat M N :=
  fun i => (z i - rowMax z (row i)) - Ideal.log (expSum z (row i))

/-- Log-softmax, the log-sum-exp subtracted at once: z(p, c) − (log S(p) + M(p)). -/
def lsmLse {M N : ℕ} (z : Mat M N) : Mat M N :=
  fun i => z i - (Ideal.log (expSum z (row i)) + rowMax z (row i))

theorem lsmShift_ix2 {M N : ℕ} (z : Mat M N) (p : Fin M) (c : Fin N) :
    lsmShift z (ix2 p c) = (z (ix2 p c) - rowMax z p) - Ideal.log (expSum z p) := rfl
theorem lsmLse_ix2 {M N : ℕ} (z : Mat M N) (p : Fin M) (c : Fin N) :
    lsmLse z (ix2 p c) = z (ix2 p c) - (Ideal.log (expSum z p) + rowMax z p) := rfl

/-- Every entry of the array is a real number. -/
def IsReal {s : Shape} (a : s.Idx → EReal) : Prop := ∀ i, ∃ r : ℝ, a i = (r : EReal)

/-- A finite sum of real numbers, as an extended real, is the real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A product of real matrices is real. -/
theorem mm_real {M K N : ℕ} {l : Mat M K} {r : Mat K N} (hl : IsReal l) (hr : IsReal r) : IsReal (mm l r) := by
  intro i
  choose fl hfl using hl
  choose fr hfr using hr
  refine ⟨∑ k : Fin K, fl (ix2 (row i) k) * fr (ix2 k (col i)), ?_⟩
  rw [coe_sum]
  exact Finset.sum_congr rfl fun k _ => by rw [hfl, hfr, EReal.coe_mul]

/-- A real matrix with a real bias row added is real. -/
theorem addBias_real {M N : ℕ} {a : Mat M N} {b : Fin N → EReal} (ha : IsReal a) (hb : ∀ c, ∃ r : ℝ, b c = (r : EReal)) :
    IsReal (addBias a b) := by
  intro i
  obtain ⟨x, hx⟩ := ha i
  obtain ⟨y, hy⟩ := hb (col i)
  exact ⟨x + y, by show a i + b (col i) = _; rw [hx, hy, EReal.coe_add]⟩

/-- The rectifier of a real matrix is real. -/
theorem relu_real {M N : ℕ} {a : Mat M N} (ha : IsReal a) : IsReal (relu a) := by
  intro i
  obtain ⟨x, hx⟩ := ha i
  refine ⟨max x 0, ?_⟩
  show max (a i) 0 = _
  rw [hx, ← EReal.coe_zero]
  exact (EReal.coe_strictMono.monotone.map_max).symm

/-- The maximum of a non-empty row of real entries is real. -/
theorem rowMax_real {M N : ℕ} (hN : 0 < N) {z : Mat M N} (hz : IsReal z) (p : Fin M) : ∃ r : ℝ, rowMax z p = (r : EReal) := by
  have hbot : ⊥ < rowMax z p := by
    unfold rowMax
    rw [Finset.lt_fold_max]
    obtain ⟨x, hx⟩ := hz (ix2 p ⟨0, hN⟩)
    exact Or.inr ⟨⟨0, hN⟩, Finset.mem_univ _, by rw [hx]; exact EReal.bot_lt_coe x⟩
  have htop : rowMax z p < ⊤ := by
    unfold rowMax
    rw [Finset.fold_max_lt]
    refine ⟨bot_lt_top, fun k _ => ?_⟩
    obtain ⟨x, hx⟩ := hz (ix2 p k)
    rw [hx]; exact EReal.coe_lt_top x
  exact ⟨(rowMax z p).toReal, (EReal.coe_toReal htop.ne hbot.ne').symm⟩

/-- For real z and M and any extended real L: (z − M) − L = z − (L + M). -/
theorem sub_sub_eq (z M : ℝ) (L : EReal) : ((z : EReal) - (M : EReal)) - L = (z : EReal) - (L + (M : EReal)) := by
  induction L using EReal.rec with
  | bot => simp [← EReal.coe_sub]
  | top => simp [← EReal.coe_sub]
  | coe l => rw [← EReal.coe_sub, ← EReal.coe_sub, ← EReal.coe_add, ← EReal.coe_sub]; congr 1; ring

/-- The two arrangements of the log-softmax agree on a real matrix with non-empty rows. -/
theorem lsm_eq {M N : ℕ} (hN : 0 < N) {z : Mat M N} (hz : IsReal z) : lsmLse z = lsmShift z := by
  funext i
  obtain ⟨x, hx⟩ := hz i
  obtain ⟨y, hy⟩ := rowMax_real hN hz (row i)
  show z i - (Ideal.log (expSum z (row i)) + rowMax z (row i)) = (z i - rowMax z (row i)) - Ideal.log (expSum z (row i))
  rw [hx, hy]
  exact (sub_sub_eq x y _).symm

/-- The logits of the two-layer network: adj · (relu(adj · (x · W1) + b1) · W2) + b2. -/
def logits (x : Mat 10000 128) (adj : Mat 10000 10000) (w1 : Mat 128 64) (b1 : Fin 64 → EReal) (w2 : Mat 64 64)
    (b2 : Fin 64 → EReal) : Mat 10000 64 :=
  addBias (mm adj (mm (relu (addBias (mm adj (mm x w1)) b1)) w2)) b2

/-- The network's output: the row-wise log-softmax of the logits, the maximum subtracted first. -/
def gcn (x : Mat 10000 128) (adj : Mat 10000 10000) (w1 : Mat 128 64) (b1 : Fin 64 → EReal) (w2 : Mat 64 64)
    (b2 : Fin 64 → EReal) : Mat 10000 64 :=
  lsmShift (logits x adj w1 b1 w2 b2)

/-- Real inputs give real logits. -/
theorem logits_real {x : Mat 10000 128} {adj : Mat 10000 10000} {w1 : Mat 128 64} {b1 : Fin 64 → EReal} {w2 : Mat 64 64}
    {b2 : Fin 64 → EReal} (hx : IsReal x) (hadj : IsReal adj) (hw1 : IsReal w1) (hb1 : ∀ c, ∃ r : ℝ, b1 c = (r : EReal))
    (hw2 : IsReal w2) (hb2 : ∀ c, ∃ r : ℝ, b2 c = (r : EReal)) : IsReal (logits x adj w1 b1 w2 b2) :=
  addBias_real (mm_real hadj (mm_real (relu_real (addBias_real (mm_real hadj (mm_real hx hw1)) hb1)) hw2)) hb2

end Cert.Gcn

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.RefValue.lean ====
/- The reference program computes the specification's function.

   Read one operation at a time at the ideal instance, the reference is: three matrix products and a bias row,
   the rectifier, two more products and a second bias row — the logits z = adj · (relu(adj · (x · W1) + b1) · W2) + b2 —
   and then, row by row, the log-softmax with the maximum subtracted first: the row maximum M taken from the bottom
   (a further maximum with the bottom changes nothing), the shifted logits z − M, their exponentials, the exponentials'
   sum S started from zero, its logarithm, and (z − M) − log S. Each stage is identified with the specification's
   function of the same name at a pair of coordinates; from the logits on, the logits stay one unopened array. -/
import proofs.«149217_g27290222198914_cont_9to1_1311_3_alg».proof.Proof.RefRead
import proofs.«149217_g27290222198914_cont_9to1_1311_3_alg».proof.Proof.Spec
import proofs.«149217_g27290222198914_cont_9to1_1311_3_alg».proof.Proof.LibMaxFold
import Idealize.ShloMosaic.Lib.ValueIdx
import Idealize.ShloMosaic.PureOps.Ideal.Laws

noncomputable section

open scoped BigOperators

namespace Cert.Gcn.Ref

open Cert.ReferenceIdeal Cert.ReferenceIdeal.ReadP Idealize.ShloMosaic Idealize.ShloMosaic.ValueIdx

/-- Two matrices that agree at every pair of coordinates are equal. -/
theorem mat_ext {a b : ℕ} {f g : Mat a b} (h : ∀ (p : Fin a) (c : Fin b), f (ix2 p c) = g (ix2 p c)) : f = g :=
  funext fun i => (congrArg f (eq_ix2_row_col i)).trans ((h _ _).trans (congrArg g (eq_ix2_row_col i)).symm)

section Logits

variable (x0 : FVec Ideal S10000x128 .f32) (x1 : FVec Ideal S10000x10000 .f32) (x2 : FVec Ideal S128x64 .f32)
  (x3 : FVec Ideal S64 .f32) (x4 : FVec Ideal S64x64 .f32) (x5 : FVec Ideal S64 .f32)

/-- The first product is x · W1. -/
theorem v0_eq : val_main_v0 (F := Ideal) x0 x2 = mm x0 x2 := by
  refine mat_ext (a := 10000) (b := 64) fun p c => ?_
  rw [val_main_v0_apply, mm_ix2]
  refine Finset.sum_congr rfl fun k _ => ?_
  have el : lidx_main_v0 (ix2 p c) k = ix2 p k := funext fun a => by match a with | ⟨0, _⟩ => rfl | ⟨1, _⟩ => rfl
  have er : ridx_main_v0 (ix2 p c) k = ix2 k c := funext fun a => by match a with | ⟨0, _⟩ => rfl | ⟨1, _⟩ => rfl
  rw [el, er]

/-- The second product is adj · (x · W1). -/
theorem v1_eq : val_main_v1 (F := Ideal) x0 x1 x2 = mm x1 (mm x0 x2) := by
  refine mat_ext (a := 10000) (b := 64) fun p c => ?_
  rw [val_main_v1_apply, v0_eq, mm_ix2]
  refine Finset.sum_congr rfl fun k _ => ?_
  have el : lidx_main_v1 (ix2 p c) k = ix2 p k := funext fun a => by match a with | ⟨0, _⟩ => rfl | ⟨1, _⟩ => rfl
  have er : ridx_main_v1 (ix2 p c) k = ix2 k c := funext fun a => by match a with | ⟨0, _⟩ => rfl | ⟨1, _⟩ => rfl
  rw [el, er]

/-- The first bias row, broadcast to every row, reads b1 at the column. -/
theorem v3_apply (p : Fin 10000) (c : Fin 64) : val_main_v3 (F := Ideal) x3 (ix2 p c) = x3 (ix1 c) := by
  rw [val_main_v3_apply, val_main_v2_apply]
  exact congrArg x3 (funext fun a => by match a with | ⟨0, _⟩ => rfl)

/-- The first layer before the rectifier: adj · (x · W1) + b1. -/
theorem v4_eq : val_main_v4 (F := Ideal) x0 x1 x2 x3 = addBias (mm x1 (mm x0 x2)) (fun q => x3 (ix1 q)) := by
  refine mat_ext (a := 10000) (b := 64) fun p c => ?_
  rw [val_main_v4_apply, v1_eq, v3_apply, addBias_ix2]
  rfl

/-- The rectifier's zero array reads zero. -/
theorem call0_v0_apply (i : S10000x64.Idx) : val_main_call0_v0 (F := Ideal) i = 0 := by
  rw [val_main_call0_v0_apply, val_main_call0_cst_apply]
  exact Ideal.ofBits_zero_f32

/-- The hidden layer: relu(adj · (x · W1) + b1). -/
theorem v5_eq : val_main_v5 (F := Ideal) x0 x1 x2 x3 = relu (addBias (mm x1 (mm x0 x2)) (fun q => x3 (ix1 q))) := by
  refine mat_ext (a := 10000) (b := 64) fun p c => ?_
  rw [val_main_v5_apply, v4_eq, call0_v0_apply, relu_ix2]
  rfl

/-- The third product: the hidden layer times W2. -/
theorem v6_eq : val_main_v6 (F := Ideal) x0 x1 x2 x3 x4
    = mm (relu (addBias (mm x1 (mm x0 x2)) (fun q => x3 (ix1 q)))) x4 := by
  refine mat_ext (a := 10000) (b := 64) fun p c => ?_
  rw [val_main_v6_apply, v5_eq, mm_ix2]
  refine Finset.sum_congr rfl fun k _ => ?_
  have el : lidx_main_v6 (ix2 p c) k = ix2 p k := funext fun a => by match a with | ⟨0, _⟩ => rfl | ⟨1, _⟩ => rfl
  have er : ridx_main_v6 (ix2 p c) k = ix2 k c := funext fun a => by match a with | ⟨0, _⟩ => rfl | ⟨1, _⟩ => rfl
  rw [el, er]

/-- The fourth product: adj times the third. -/
theorem v7_eq : val_main_v7 (F := Ideal) x0 x1 x2 x3 x4
    = mm x1 (mm (relu (addBias (mm x1 (mm x0 x2)) (fun q => x3 (ix1 q)))) x4) := by
  refine mat_ext (a := 10000) (b := 64) fun p c => ?_
  rw [val_main_v7_apply, v6_eq, mm_ix2]
  refine Finset.sum_congr rfl fun k _ => ?_
  have el : lidx_main_v7 (ix2 p c) k = ix2 p k := funext fun a => by match a with | ⟨0, _⟩ => rfl | ⟨1, _⟩ => rfl
  have er : ridx_main_v7 (ix2 p c) k = ix2 k c := funext fun a => by match a with | ⟨0, _⟩ => rfl | ⟨1, _⟩ => rfl
  rw [el, er]

/-- The second bias row, broadcast to every row, reads b2 at the column. -/
theorem v9_apply (p : Fin 10000) (c : Fin 64) : val_main_v9 (F := Ideal) x5 (ix2 p c) = x5 (ix1 c) := by
  rw [val_main_v9_apply, val_main_v8_apply]
  exact congrArg x5 (funext fun a => by match a with | ⟨0, _⟩ => rfl)

/-- The tenth stage is the specification's logits. -/
theorem v10_eq : val_main_v10 (F := Ideal) x0 x1 x2 x3 x4 x5
    = logits x0 x1 x2 (fun q => x3 (ix1 q)) x4 (fun q => x5 (ix1 q)) := by
  refine mat_ext (a := 10000) (b := 64) fun p c => ?_
  unfold logits
  rw [val_main_v10_apply, v7_eq, v9_apply, addBias_ix2]
  rfl

end Logits

section Softmax

variable (x0 : FVec Ideal S10000x128 .f32) (x1 : FVec Ideal S10000x10000 .f32) (x2 : FVec Ideal S128x64 .f32)
  (x3 : FVec Ideal S64 .f32) (x4 : FVec Ideal S64x64 .f32) (x5 : FVec Ideal S64 .f32)

/-- The maximum-reduction along the columns, started from the constant -infinity, is the row maximum of the logits:
    the source index over row p with column k inserted is (p, k). -/
theorem call1_v0_apply (p : Fin 10000) :
    val_main_call1_v0 (F := Ideal) x0 x1 x2 x3 x4 x5 (ix1 p)
      = rowMax (val_main_v10 (F := Ideal) x0 x1 x2 x3 x4 x5) p := by
  unfold val_main_call1_v0
  generalize val_main_v10 (F := Ideal) x0 x1 x2 x3 x4 x5 = z
  unfold val_main_call1_cst
  have h : S10000x64.Reduces [1] S10000 := by decide
  refine (Cert.Lib.MaxFold.hostMaxRed_apply z Gen.reducesTo_S10000x64_S10000_d1 h Gen.h_S_ (ix1 p)).trans ?_
  unfold rowMax
  have e : z ∘ h.lift (ix1 p) = fun k : Fin 64 => z (ix2 p k) :=
    funext fun k => congrArg z (funext fun a => Fin.ext (by match a with | ⟨0, _⟩ => rfl | ⟨1, _⟩ => rfl))
  exact congrArg (fun f : Fin 64 → EReal => (Finset.univ : Finset (Fin 64)).fold max ⊥ f) e

/-- The broadcast constant -infinity reads the bottom. -/
theorem call1_v1_apply (i : S10000.Idx) : val_main_call1_v1 (F := Ideal) i = ⊥ := by
  rw [val_main_call1_v1_apply, val_main_call1_cst_0_apply]
  exact Cert.Lib.MaxFold.ofBits_neg_inf

/-- The maximum of the bottom and the row maximum is the row maximum. -/
theorem call1_v2_apply (p : Fin 10000) :
    val_main_call1_v2 (F := Ideal) x0 x1 x2 x3 x4 x5 (ix1 p)
      = rowMax (val_main_v10 (F := Ideal) x0 x1 x2 x3 x4 x5) p := by
  rw [val_main_call1_v2_apply, call1_v1_apply, call1_v0_apply]
  exact max_bot_left _

/-- The row maximum, broadcast along the row. -/
theorem call1_v4_apply (p : Fin 10000) (c : Fin 64) :
    val_main_call1_v4 (F := Ideal) x0 x1 x2 x3 x4 x5 (ix2 p c)
      = rowMax (val_main_v10 (F := Ideal) x0 x1 x2 x3 x4 x5) p := by
  rw [val_main_call1_v4_apply, val_main_call1_v3_apply]
  have e : idx_main_call1_v3 (idx_main_call1_v4 (ix2 p c)) = ix1 p := funext fun a => by match a with | ⟨0, _⟩ => rfl
  rw [e, call1_v2_apply]

/-- The shifted logits: z(p, c) − M(p). -/
theorem call1_v5_apply (p : Fin 10000) (c : Fin 64) :
    val_main_call1_v5 (F := Ideal) x0 x1 x2 x3 x4 x5 (ix2 p c)
      = val_main_v10 (F := Ideal) x0 x1 x2 x3 x4 x5 (ix2 p c) - rowMax (val_main_v10 (F := Ideal) x0 x1 x2 x3 x4 x5) p := by
  rw [val_main_call1_v5_apply, call1_v4_apply]
  rfl

/-- Their exponentials. -/
theorem call1_v6_apply (p : Fin 10000) (c : Fin 64) :
    val_main_call1_v6 (F := Ideal) x0 x1 x2 x3 x4 x5 (ix2 p c)
      = Ideal.exp (val_main_v10 (F := Ideal) x0 x1 x2 x3 x4 x5 (ix2 p c)
          - rowMax (val_main_v10 (F := Ideal) x0 x1 x2 x3 x4 x5) p) := by
  rw [val_main_call1_v6_apply, call1_v5_apply]
  rfl

/-- The sum along the row, started from the zero word, is the row's exponential sum. -/
theorem call1_v7_apply (p : Fin 10000) :
    val_main_call1_v7 (F := Ideal) x0 x1 x2 x3 x4 x5 (ix1 p)
      = expSum (val_main_v10 (F := Ideal) x0 x1 x2 x3 x4 x5) p := by
  rw [val_main_call1_v7_apply, val_main_call1_cst_1_apply, Ideal.ofBits_def, Ideal.ofBits_zero_f32, zero_add]
  unfold expSum
  refine Finset.sum_congr rfl fun k _ => ?_
  have e : idx_main_call1_v7 (ix1 p) k = ix2 p k := funext fun a => by match a with | ⟨0, _⟩ => rfl | ⟨1, _⟩ => rfl
  rw [e, call1_v6_apply]

/-- The logarithm of the exponential sum, broadcast along the row. -/
theorem call1_v10_apply (p : Fin 10000) (c : Fin 64) :
    val_main_call1_v10 (F := Ideal) x0 x1 x2 x3 x4 x5 (ix2 p c)
      = Ideal.log (expSum (val_main_v10 (F := Ideal) x0 x1 x2 x3 x4 x5) p) := by
  rw [val_main_call1_v10_apply, val_main_call1_v9_apply, val_main_call1_v8_apply]
  have e : idx_main_call1_v8 (idx_main_call1_v10 (ix2 p c)) = ix1 p := funext fun a => by match a with | ⟨0, _⟩ => rfl
  rw [e, call1_v7_apply]
  rfl

/-- The last stage is the log-softmax of the logits, the maximum subtracted first. -/
theorem v11_apply (p : Fin 10000) (c : Fin 64) :
    val_main_v11 (F := Ideal) x0 x1 x2 x3 x4 x5 (ix2 p c)
      = lsmShift (val_main_v10 (F := Ideal) x0 x1 x2 x3 x4 x5) (ix2 p c) := by
  rw [val_main_v11_apply, call1_v5_apply, call1_v10_apply, lsmShift_ix2]
  rfl

end Softmax

/-- The reference program's result is the specification's network function of its arguments. -/
theorem ref_eq (x0 : FVec Ideal S10000x128 .f32) (x1 : FVec Ideal S10000x10000 .f32) (x2 : FVec Ideal S128x64 .f32)
    (x3 : FVec Ideal S64 .f32) (x4 : FVec Ideal S64x64 .f32) (x5 : FVec Ideal S64 .f32) :
    val_main_v11 (F := Ideal) x0 x1 x2 x3 x4 x5
      = Cert.Gcn.gcn x0 x1 x2 (fun q => x3 (ix1 q)) x4 (fun q => x5 (ix1 q)) := by
  unfold gcn
  rw [← v10_eq]
  exact mat_ext (a := 10000) (b := 64) fun p c => v11_apply x0 x1 x2 x3 x4 x5 p c

end Cert.Gcn.Ref

end
-- ==== Proof.Finite.lean ====
/- From "every float input is finite" to "every entry of every argument array is a real number".

   The precondition states, for each of the six argument arrays x, that the conjunction over all entries of the
   comparison |x| < +∞ is true, and that the six conjunctions are all true. On the extended reals |x| is max(x, −x)
   and the constant 0x7F800000 is +∞. A conjunction over every axis into the one rank-0 index is true only when every
   entry's comparison is true; and max(x, −x) < +∞ excludes x = +∞ (the maximum is +∞) and x = −∞ (its negation is +∞),
   so x is a real number. The arrays stay variables throughout: nothing is evaluated over an index type. -/
import proofs.«149217_g27290222198914_cont_9to1_1311_3_alg».proof.Pre_finite_inputs
import proofs.«149217_g27290222198914_cont_9to1_1311_3_alg».proof.Proof.Spec
import Idealize.ShloMosaic.Lib.ReduceAll
import Idealize.ShloMosaic.Lib.ValueIdx
import Idealize.ShloMosaic.PureOps.Ideal

noncomputable section

open Idealize.ShloMosaic

namespace Cert.Gcn.Finite

open Cert.Pre_finite_inputs (S_)

/-- The word 0x7F800000 read as a single-precision pattern is +∞: sign 0, exponent all ones, significand 0. -/
theorem inf_word : Ideal.ofBits .f32 0x7F800000#32 = (⊤ : EReal) := by
  simp [Ideal.ofBits, Ideal.ieee]

/-- A one-bit word made from a truth value is 1 exactly when the value is true. -/
theorem ofBool_eq_one {b : Bool} : BitVec.ofBool b = 1#1 ↔ b = true := by cases b <;> decide

/-- An extended real whose absolute value max(x, −x) compares strictly below +∞ is a real number:
    x = +∞ gives max = +∞, and x = −∞ gives −x = +∞, so neither infinity passes the comparison. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := of_decide_eq_true (ofBool_eq_one.1 h)
  induction x using EReal.rec with
  | bot => exact absurd hlt (by simp)
  | top => exact absurd hlt (by simp)
  | coe r => exact ⟨r, rfl⟩

/-- The rank-0 shape has exactly one index. -/
instance subsingleton_S_Idx : Subsingleton S_.Idx := ⟨fun a b => funext fun d => d.elim0⟩

/-- One argument: if the conjunction over all entries of "|x| < +∞" is true, every entry of x is a real number.
    The conjunction over all axes into the single rank-0 index is true only when each entry's comparison word is 1,
    and the comparison at an entry is the scalar comparison of max(x, −x) with the constant +∞. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32)))
          init hr hu j = 1#1) :
    Cert.Gcn.IsReal x := by
  intro i
  exact real_of_abs_lt (x i) (Host.reduce_andi_all _ init hr hu j e i)

/-- All six arguments: the precondition's value is the conjunction of the six per-argument conjunctions, nested to the
    left; it is 1 only when each of the six is 1, and each of those makes its argument an array of real numbers. -/
theorem real_of_pre [Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x64 .f32) (x3 : FVec Ideal Cert.Pre_finite_inputs.S64 .f32)
    (x4 : FVec Ideal Cert.Pre_finite_inputs.S64x64 .f32) (x5 : FVec Ideal Cert.Pre_finite_inputs.S64 .f32)
    (h : Cert.Pre_finite_inputs.fn (F := Ideal) x0 x1 x2 x3 x4 x5 = fun _ => 1#1) :
    Cert.Gcn.IsReal x0 ∧ Cert.Gcn.IsReal x1 ∧ Cert.Gcn.IsReal x2 ∧ Cert.Gcn.IsReal x3 ∧ Cert.Gcn.IsReal x4 ∧ Cert.Gcn.IsReal x5 := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ _ _ _ _ e0, isReal_of_all x1 _ _ _ _ _ e1, isReal_of_all x2 _ _ _ _ _ e2,
    isReal_of_all x3 _ _ _ _ _ e3, isReal_of_all x4 _ _ _ _ _ e4, isReal_of_all x5 _ _ _ _ _ e5⟩

end Cert.Gcn.Finite

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.K0.lean ====
/- The first pallas_call: the feature transform x · W1, 2000 rows per grid point.

   At grid point t the body multiplies rows 2000t … 2000t + 1999 of x (its block of the first operand) by the whole of
   W1 into the zero accumulator and stores the product as the output's block t. Entry (r, q) of that block is the sum
   over k of x(2000t + r, k) · W1(k, q): entry (2000t + r, q) of the whole product. The five blocks tile the 10000 rows
   (row i lies in block i / 2000), so after the call's write-backs the output array is the product of the two arrays the
   call found in its operands. -/
import proofs.«149217_g27290222198914_cont_9to1_1311_3_alg».proof.Proof.Gen.KernelIdeal.Frame
import proofs.«149217_g27290222198914_cont_9to1_1311_3_alg».proof.Proof.Spec
import proofs.«149217_g27290222198914_cont_9to1_1311_3_alg».proof.Proof.LibPlainMatmul
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (r, q): the row-by-column sum. -/
theorem pay0_apply (x0 : Vec Ideal S2000x128 .f32) (x1 : Vec Ideal S128x64 .f32) (r : Fin 2000) (q : Fin 64) :
    k0_pay1 (F := Ideal) x0 x1 (ix2 r q) = ∑ k : Fin 128, x0 (ix2 r k) * x1 (ix2 k q) := by
  unfold k0_pay1
  exact Cert.Lib.PlainMatmul.plain_matmul_zero_apply (M := 2000) (K := 128) (N := 64) x0 x1 r q

/-- The printed index maps over the grid: the first operand's and the output's row block is the point's number, every
    other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt0 (t : Fin cfg0.N) : t.val < 5 := lt_of_lt_of_eq t.isLt N_0

/-- Row r of point t's block is row 2000t + r of the array. -/
abbrev rowAt0 (t : Fin cfg0.N) (r : Fin 2000) : Fin 10000 := ⟨2000 * t.val + r.val, by have := t_lt0 t; have := r.isLt; omega⟩

/-- The first operand's block at point t, read at (r, k). -/
theorem blk0_0_apply (c : Dev nD) (t : Fin cfg0.N) (r : Fin 2000) (k : Fin 128) :
    (iblk0 V c 0 t : Vec Ideal S2000x128 .f32) (ix2 r k) = (V c main_arg0 : S10000x128.Idx → EReal) (ix2 (rowAt0 t r) k) := by
  obtain ⟨e0, e1, -⟩ := idx_facts0 t
  show (V c main_arg0 : S10000x128.Idx → EReal) (((cfg0.win 0).blk t).view.emb (ix2 r k)) = _
  refine congrArg (V c main_arg0 : S10000x128.Idx → EReal) ?_
  funext a; apply Fin.ext
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

/-- The second operand's block is the whole array. -/
theorem blk0_1_apply (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -⟩ := idx_facts0 t
  show (V c main_arg2 : S128x64.Idx → EReal) (((cfg0.win 1).blk t).view.emb (ix2 k q)) = _
  refine congrArg (V c main_arg2 : S128x64.Idx → EReal) ?_
  funext a; apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Where the output's block at point t sits in the array. -/
theorem emb0_2 (t : Fin cfg0.N) (r : Fin 2000) (q : Fin 64) :
    (((cfg0.win 2).blk t).view.emb (ix2 r q) : S10000x64.Idx) = ix2 (rowAt0 t r) q := by
  obtain ⟨-, -, -, -, e4, e5⟩ := idx_facts0 t
  funext a; apply Fin.ext
  match a with
  | ⟨0, _⟩ => show win0_2.index t (0 : Fin 2) * 2000 + 1 * r.val = 2000 * t.val + r.val; rw [e4]; omega
  | ⟨1, _⟩ => show win0_2.index t (1 : Fin 2) * 64 + 1 * q.val = q.val; rw [e5]; omega

/-- What point t writes back is block t of the product of the two arrays the call found. -/
theorem flushed0_eq (c : Dev nD) (t : Fin cfg0.N) :
    (dat0 V c).flushed 2 t = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  funext j
  obtain ⟨r, q, rfl⟩ : ∃ (r : Fin 2000) (q : Fin 64), j = ix2 r q := ⟨j 0, j 1, eq_ix2 j⟩
  show k0_pay1 (F := Ideal) (iblk0 V c 0 t) (iblk0 V c 1 t) (ix2 r q)
    = Cert.Gcn.mm (V c main_arg0) (V c main_arg2) (((cfg0.win 2).blk t).view.emb (ix2 r q))
  rw [emb0_2 t r q]
  refine (pay0_apply _ _ r q).trans ?_
  exact Finset.sum_congr rfl fun k _ => by rw [blk0_0_apply V c t r k, blk0_1_apply V c t k q]

/-- An index of the output array is in point t's block iff each coordinate is in the block's range on its axis. -/
theorem mem_blk0 (t : Fin cfg0.N) (i : S10000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v2).slice (win0_2.rect t)).set ↔ _
  rw [View.set_slice_whole, Rect.mem_set_unit]
  exact Iff.rfl

/-- Every index of the output array lies in some point's block: row i in block i / 2000. -/
theorem cover0 (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨t, ht⟩ : ∃ t : Fin cfg0.N, t.val = (i 0).val / 2000 := ⟨⟨(i 0).val / 2000, by rw [show cfg0.N = 5 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 64 ≤ (i 1).val ∧ (i 1).val < win0_2.index t (1 : Fin 2) * 64 + 64; rw [e5]; omega

/-- After the first call the output array is the product of the arrays found in its two operands. -/
theorem final0 (c : Dev nD) : (dat0 V c).arrAt 2 cfg0.N = Cert.Gcn.mm (V c main_arg0) (V c main_arg2) :=
  (dat0 V c).arrAt_eq_of_cover 2 _ (fun t _ => flushed0_eq V c t) cover0

end Cert.KernelIdeal.Hand

end
-- ==== Proof.SpecRows.lean ====
/- Rows of the layer functions depend on rows of their left operand only: the matrix product's row p is determined by
   the left matrix's row p, and a log-softmax's row p by the logits' row p (its maximum and its exponential sum are taken
   along that row). So a layer computed on a block of rows is the layer computed on the whole array, read at those rows. -/
import proofs.«149217_g27290222198914_cont_9to1_1311_3_alg».proof.Proof.Spec

noncomputable section

open scoped BigOperators

open Idealize.ShloMosaic Idealize.ShloMosaic.ValueIdx

namespace Cert.Gcn

/-- Two left matrices with one row in common give products with that row in common. -/
theorem mm_row_congr {M M' K N : ℕ} {l : Mat M K} {l' : Mat M' K} (r : Mat K N) (p : Fin M) (p' : Fin M')
    (h : ∀ k, l (ix2 p k) = l' (ix2 p' k)) (c : Fin N) : mm l r (ix2 p c) = mm l' r (ix2 p' c) := by
  rw [mm_ix2, mm_ix2]
  exact Finset.sum_congr rfl fun k _ => by rw [h k]

/-- The same for the biased product, -/
theorem addBias_row_congr {M M' N : ℕ} {a : Mat M N} {a' : Mat M' N} (b : Fin N → EReal) (p : Fin M) (p' : Fin M')
    (c : Fin N) (h : a (ix2 p c) = a' (ix2 p' c)) : addBias a b (ix2 p c) = addBias a' b (ix2 p' c) := by
  rw [addBias_ix2, addBias_ix2, h]

/-- for the rectifier, -/
theorem relu_row_congr {M M' N : ℕ} {a : Mat M N} {a' : Mat M' N} (p : Fin M) (p' : Fin M')
    (c : Fin N) (h : a (ix2 p c) = a' (ix2 p' c)) : relu a (ix2 p c) = relu a' (ix2 p' c) := by
  rw [relu_ix2, relu_ix2, h]

/-- for the row maximum, -/
theorem rowMax_row_congr {M M' N : ℕ} {z : Mat M N} {z' : Mat M' N} (p : Fin M) (p' : Fin M')
    (h : ∀ k, z (ix2 p k) = z' (ix2 p' k)) : rowMax z p = rowMax z' p' := by
  unfold rowMax
  exact congrArg (fun f => (Finset.univ : Finset (Fin N)).fold max ⊥ f) (funext h)

/-- for the exponential sum, -/
theorem expSum_row_congr {M M' N : ℕ} {z : Mat M N} {z' : Mat M' N} (p : Fin M) (p' : Fin M')
    (h : ∀ k, z (ix2 p k) = z' (ix2 p' k)) : expSum z p = expSum z' p' := by
  unfold expSum
  rw [rowMax_row_congr p p' h]
  exact Finset.sum_congr rfl fun k _ => by rw [h k]

/-- and for the log-softmax. -/
theorem lsmLse_row_congr {M M' N : ℕ} {z : Mat M N} {z' : Mat M' N} (p : Fin M) (p' : Fin M')
    (h : ∀ k, z (ix2 p k) = z' (ix2 p' k)) (c : Fin N) : lsmLse z (ix2 p c) = lsmLse z' (ix2 p' c) := by
  rw [lsmLse_ix2, lsmLse_ix2, h c, rowMax_row_congr p p' h, expSum_row_congr p p' h]

end Cert.Gcn

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.KPay.lean ====
/- What the second and third kernel bodies store, entry by entry, on the extended reals.

   Both bodies start alike: the block of adjacency rows times the whole of the previous layer's array (the operands'
   rounding to bf16 on the way into the product is the identity here), plus the bias row: the block's biased product.
   The second body applies the rectifier and multiplies by W2. The third takes, along each row, the maximum M, the sum S of
   the exponentials of the entries less M, and stores entry − (log S + M): the log-softmax with the log-sum-exp
   subtracted at once. Each is stated as the specification's layer functions of the loaded blocks. -/
import proofs.«149217_g27290222198914_cont_9to1_1311_3_alg».proof.Proof.Gen.KernelIdeal.Skeleton
import proofs.«149217_g27290222198914_cont_9to1_1311_3_alg».proof.Proof.Spec
import proofs.«149217_g27290222198914_cont_9to1_1311_3_alg».proof.Proof.SpecRows
import proofs.«149217_g27290222198914_cont_9to1_1311_3_alg».proof.Proof.LibPlainMatmul
import proofs.«149217_g27290222198914_cont_9to1_1311_3_alg».proof.Proof.LibMaxFold
import proofs.«149217_g27290222198914_cont_9to1_1311_3_alg».proof.Proof.LibBroadcastReads
import proofs.«149217_g27290222198914_cont_9to1_1311_3_alg».proof.Proof.LibColumnReads
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The block's biased product as the bodies compute it. -/
def logitsBlk (x0 : FVec Ideal S200x10000 .f32) (x1 : FVec Ideal S10000x64 .f32) (x2 : FVec Ideal S1x64 .f32) : FVec Ideal S200x64 .f32 :=
  addf (matmul dot_S200x10000_S10000x64_S200x64_1_0_0_1_n_n none (truncf .bf16 x0 Facts₀.bitsLt_bf16_f32)
      (truncf .bf16 (shapeCast S10000x64 x1 Facts₀.shapeCasts_S10000x64_S10000x64) Facts₀.bitsLt_bf16_f32) (constant S200x64 .f32 0x00000000#32))
    (broadcastTo S200x64 (shapeCast S1x64 x2 Facts₀.shapeCasts_S1x64_S1x64) Facts₀.broadcasts_S1x64_S200x64)

/-- Entry (r, k) of the block's biased product: the row-by-column sum plus the bias at k. -/
theorem logitsBlk_apply (x0 : FVec Ideal S200x10000 .f32) (x1 : FVec Ideal S10000x64 .f32) (x2 : FVec Ideal S1x64 .f32)
    (r : Fin 200) (k : Fin 64) :
    logitsBlk x0 x1 x2 (ix2 r k) = Cert.Gcn.addBias (Cert.Gcn.mm x0 x1) (fun c => x2 (ix2 (0 : Fin 1) c)) (ix2 r k) := by
  unfold logitsBlk
  show matmul dot_S200x10000_S10000x64_S200x64_1_0_0_1_n_n none (truncf .bf16 x0 Facts₀.bitsLt_bf16_f32)
      (truncf .bf16 (shapeCast S10000x64 x1 Facts₀.shapeCasts_S10000x64_S10000x64) Facts₀.bitsLt_bf16_f32) (constant S200x64 .f32 0x00000000#32) (ix2 r k)
    + broadcastTo S200x64 (shapeCast S1x64 x2 Facts₀.shapeCasts_S1x64_S1x64) Facts₀.broadcasts_S1x64_S200x64 (ix2 r k)
    = Cert.Gcn.mm x0 x1 (ix2 r k) + x2 (ix2 (0 : Fin 1) k)
  rw [shapeCast_self, shapeCast_self, broadcastTo_1b_ab_apply]
  refine congrArg (· + x2 (ix2 (0 : Fin 1) k)) ?_
  exact Cert.Lib.PlainMatmul.plain_matmul_zero_apply (M := 200) (K := 10000) (N := 64) _ _ r k

/-- The second body's stored value is the product with W2 of the rectified biased product. -/
theorem pay1_eq (x0 : FVec Ideal S200x10000 .f32) (x1 : FVec Ideal S10000x64 .f32) (x2 : FVec Ideal S1x64 .f32) (x3 : FVec Ideal S64x64 .f32) :
    k1_pay1 (F := Ideal) x0 x1 x2 x3
      = matmul dot_S200x64_S64x64_S200x64_1_0_0_1_n_n none
          (maximumf (logitsBlk x0 x1 x2) (broadcast S200x64 (Scalar.ofBits (F := Ideal) .f32 0x00000000#32))) x3
          (constant S200x64 .f32 0x00000000#32) := rfl

/-- Entry (r, q) of the second body's stored value. -/
theorem pay1_apply (x0 : FVec Ideal S200x10000 .f32) (x1 : FVec Ideal S10000x64 .f32) (x2 : FVec Ideal S1x64 .f32) (x3 : FVec Ideal S64x64 .f32)
    (r : Fin 200) (q : Fin 64) :
    k1_pay1 (F := Ideal) x0 x1 x2 x3 (ix2 r q)
      = Cert.Gcn.mm (Cert.Gcn.relu (Cert.Gcn.addBias (Cert.Gcn.mm x0 x1) (fun c => x2 (ix2 (0 : Fin 1) c)))) x3 (ix2 r q) := by
  rw [pay1_eq]
  refine (Cert.Lib.PlainMatmul.plain_matmul_zero_apply (M := 200) (K := 64) (N := 64) _ x3 r q).trans ?_
  rw [Cert.Gcn.mm_ix2]
  refine Finset.sum_congr rfl fun k _ => ?_
  refine congrArg (· * x3 (ix2 k q)) ?_
  show max (logitsBlk x0 x1 x2 (ix2 r k)) (Ideal.ofBits .f32 0x00000000#32) = max _ 0
  rw [Ideal.ofBits_zero_f32, logitsBlk_apply]

/-- The third body's tail on a block z of logits: row maximum, shift, exponentials, row sum, logarithm, and the
    subtraction of log-sum-exp. -/
def lsmTail (z : FVec Ideal S200x64 .f32) : FVec Ideal S200x64 .f32 :=
  subf z (broadcastTo S200x64
    (addf (log (shapeCast S200x1 (multiReduction .add [1] S200
        (exp (subf z (broadcastTo S200x64 (shapeCast S200x1 (multiReduction .maximumf [1] S200 z 0xFF800000#32 Facts₀.reduces_S200x64_S200 (.inl rfl) rfl) Facts₀.shapeCasts_S200_S200x1) Facts₀.broadcasts_S200x1_S200x64)))
        0x00000000#32 Facts₀.reduces_S200x64_S200 (.inl rfl) rfl) Facts₀.shapeCasts_S200_S200x1))
      (shapeCast S200x1 (multiReduction .maximumf [1] S200 z 0xFF800000#32 Facts₀.reduces_S200x64_S200 (.inl rfl) rfl) Facts₀.shapeCasts_S200_S200x1))
    Facts₀.broadcasts_S200x1_S200x64)

/-- The third body's stored value is that tail of the block's biased product. -/
theorem pay2_eq (x0 : FVec Ideal S200x10000 .f32) (x1 : FVec Ideal S10000x64 .f32) (x2 : FVec Ideal S1x64 .f32) :
    k2_pay1 (F := Ideal) x0 x1 x2 = lsmTail (logitsBlk x0 x1 x2) := rfl

/-- The row maximum of a block as the body takes it. -/
theorem rowMaxBlk_apply (z : FVec Ideal S200x64 .f32) (r : Fin 200) :
    multiReduction .maximumf [1] S200 z 0xFF800000#32 Facts₀.reduces_S200x64_S200 (.inl rfl) rfl (ix1 r) = Cert.Gcn.rowMax z r := by
  refine (Cert.Lib.MaxFold.maxRed_apply z Facts₀.reduces_S200x64_S200 (.inl rfl) rfl (ix1 r)).trans ?_
  unfold Cert.Gcn.rowMax
  show (Finset.univ : Finset (Fin 64)).fold max ⊥ (fun k => z (Facts₀.reduces_S200x64_S200.lift (ix1 r) k)) = _
  refine congrArg (fun f => (Finset.univ : Finset (Fin 64)).fold max ⊥ f) (funext fun k => congrArg z (funext fun a => Fin.ext ?_))
  match a with
  | ⟨0, _⟩ => rfl
  | ⟨1, _⟩ => rfl

/-- Entry (r, q) of the tail: the log-softmax of the block, the log-sum-exp subtracted at once. -/
theorem lsmTail_apply (z : FVec Ideal S200x64 .f32) (r : Fin 200) (q : Fin 64) :
    lsmTail z (ix2 r q) = Cert.Gcn.lsmLse z (ix2 r q) := by
  -- the column of row maxima, read at row r
  have hM : shapeCast S200x1 (multiReduction .maximumf [1] S200 z 0xFF800000#32 Facts₀.reduces_S200x64_S200 (.inl rfl) rfl) Facts₀.shapeCasts_S200_S200x1
      (ix2 r (0 : Fin 1)) = Cert.Gcn.rowMax z r :=
    (Cert.Lib.ColumnReads.shapeCast_a_a1_apply _ Facts₀.shapeCasts_S200_S200x1 r 0).trans (rowMaxBlk_apply z r)
  -- the row's exponential sum
  have hS : multiReduction .add [1] S200
      (exp (subf z (broadcastTo S200x64 (shapeCast S200x1 (multiReduction .maximumf [1] S200 z 0xFF800000#32 Facts₀.reduces_S200x64_S200 (.inl rfl) rfl) Facts₀.shapeCasts_S200_S200x1) Facts₀.broadcasts_S200x1_S200x64)))
      0x00000000#32 Facts₀.reduces_S200x64_S200 (.inl rfl) rfl (ix1 r) = Cert.Gcn.expSum z r := by
    refine (Cert.Lib.PlainMatmul.rowSum_apply (A := 200) (K := 64) _ 0x00000000#32 Facts₀.reduces_S200x64_S200 (.inl rfl) rfl r).trans ?_
    unfold Cert.Gcn.expSum
    refine Finset.sum_congr rfl fun k _ => ?_
    show Ideal.exp (z (ix2 r k) - broadcastTo S200x64 _ Facts₀.broadcasts_S200x1_S200x64 (ix2 r k)) = _
    rw [Cert.Lib.BroadcastReads.broadcastTo_a1_ab_apply, hM]
  unfold lsmTail
  show z (ix2 r q) - broadcastTo S200x64 _ Facts₀.broadcasts_S200x1_S200x64 (ix2 r q) = _
  rw [Cert.Lib.BroadcastReads.broadcastTo_a1_ab_apply, Cert.Gcn.lsmLse_ix2]
  refine congrArg (z (ix2 r q) - ·) ?_
  show Ideal.log (shapeCast S200x1 _ Facts₀.shapeCasts_S200_S200x1 (ix2 r (0 : Fin 1))) + shapeCast S200x1 _ Facts₀.shapeCasts_S200_S200x1 (ix2 r (0 : Fin 1)) = _
  rw [hM, Cert.Lib.ColumnReads.shapeCast_a_a1_apply, hS]

/-- Entry (r, q) of the third body's stored value. -/
theorem pay2_apply (x0 : FVec Ideal S200x10000 .f32) (x1 : FVec Ideal S10000x64 .f32) (x2 : FVec Ideal S1x64 .f32)
    (r : Fin 200) (q : Fin 64) :
    k2_pay1 (F := Ideal) x0 x1 x2 (ix2 r q)
      = Cert.Gcn.lsmLse (Cert.Gcn.addBias (Cert.Gcn.mm x0 x1) (fun c => x2 (ix2 (0 : Fin 1) c))) (ix2 r q) := by
  rw [pay2_eq, lsmTail_apply]
  exact Cert.Gcn.lsmLse_row_congr r r (fun k => logitsBlk_apply x0 x1 x2 r k) q

end Cert.KernelIdeal.Hand

end
-- ==== Proof.K1.lean ====
/- The second pallas_call: layer one with its epilogue, 200 adjacency rows per grid point.

   At grid point t the body takes rows 200t … 200t + 199 of the adjacency matrix, the whole of the first call's array,
   the bias row and the whole of W2, and stores relu(rows · array + bias) · W2 as the output's block t. Entry (r, q) of
   that block depends on row 200t + r of the adjacency matrix only, so it is entry (200t + r, q) of the same expression on
   the whole adjacency matrix. The fifty blocks tile the 10000 rows (row i lies in block i / 200). -/
import proofs.«149217_g27290222198914_cont_9to1_1311_3_alg».proof.Proof.Gen.KernelIdeal.Frame
import proofs.«149217_g27290222198914_cont_9to1_1311_3_alg».proof.Proof.Spec
import proofs.«149217_g27290222198914_cont_9to1_1311_3_alg».proof.Proof.SpecRows
import proofs.«149217_g27290222198914_cont_9to1_1311_3_alg».proof.Proof.KPay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the adjacency operand's and the output's row block is the point's number,
    every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt1 (t : Fin cfg1.N) : t.val < 50 := lt_of_lt_of_eq t.isLt N_1

/-- Row r of point t's block is row 200t + r of the array. -/
abbrev rowAt1 (t : Fin cfg1.N) (r : Fin 200) : Fin 10000 := ⟨200 * t.val + r.val, by have := t_lt1 t; have := r.isLt; omega⟩

/-- The adjacency operand's block at point t, read at (r, j). -/
theorem blk1_0_apply (c : Dev nD) (t : Fin cfg1.N) (r : Fin 200) (j : Fin 10000) :
    (iblk1 V c 0 t : Vec Ideal S200x10000 .f32) (ix2 r j) = (V c main_arg1 : S10000x10000.Idx → EReal) (ix2 (rowAt1 t r) j) := by
  obtain ⟨e0, e1, -⟩ := idx_facts1 t
  show (V c main_arg1 : S10000x10000.Idx → EReal) (((cfg1.win 0).blk t).view.emb (ix2 r j)) = _
  refine congrArg (V c main_arg1 : S10000x10000.Idx → EReal) ?_
  funext a; apply Fin.ext
  match a with
  | ⟨0, _⟩ => show win1_0.index t (0 : Fin 2) * 200 + 1 * r.val = 200 * t.val + r.val; rw [e0]; omega
  | ⟨1, _⟩ => show win1_0.index t (1 : Fin 2) * 10000 + 1 * j.val = j.val; rw [e1]; omega

/-- The other three operands' blocks are their whole arrays. -/
theorem blk1_1_eq (c : Dev nD) (t : Fin cfg1.N) :
    (iblk1 V c 1 t : Vec Ideal S10000x64 .f32) = (V c main_v2 : S10000x64.Idx → EReal) := by
  obtain ⟨-, -, e2, e3, -⟩ := idx_facts1 t
  funext y
  show (V c main_v2 : S10000x64.Idx → EReal) (((cfg1.win 1).blk t).view.emb y) = _
  refine congrArg (V c main_v2 : S10000x64.Idx → EReal) ?_
  funext a; apply Fin.ext
  match a with
  | ⟨0, _⟩ => show win1_1.index t (0 : Fin 2) * 10000 + 1 * (y 0).val = (y 0).val; rw [e2]; omega
  | ⟨1, _⟩ => show win1_1.index t (1 : Fin 2) * 64 + 1 * (y 1).val = (y 1).val; rw [e3]; omega
theorem blk1_2_eq (c : Dev nD) (t : Fin cfg1.N) :
    (iblk1 V c 2 t : Vec Ideal S1x64 .f32) = (V c main_v0 : S1x64.Idx → EReal) := by
  obtain ⟨-, -, -, -, e4, e5, -⟩ := idx_facts1 t
  funext y
  show (V c main_v0 : S1x64.Idx → EReal) (((cfg1.win 2).blk t).view.emb y) = _
  refine congrArg (V c main_v0 : S1x64.Idx → EReal) ?_
  funext a; apply Fin.ext
  match a with
  | ⟨0, _⟩ => show win1_2.index t (0 : Fin 2) * 1 + 1 * (y 0).val = (y 0).val; rw [e4]; omega
  | ⟨1, _⟩ => show win1_2.index t (1 : Fin 2) * 64 + 1 * (y 1).val = (y 1).val; rw [e5]; omega
theorem blk1_3_eq (c : Dev nD) (t : Fin cfg1.N) :
    (iblk1 V c 3 t : Vec Ideal S64x64 .f32) = (V c main_arg4 : S64x64.Idx → EReal) := by
  obtain ⟨-, -, -, -, -, -, e6, e7, -⟩ := idx_facts1 t
  funext y
  show (V c main_arg4 : S64x64.Idx → EReal) (((cfg1.win 3).blk t).view.emb y) = _
  refine congrArg (V c main_arg4 : S64x64.Idx → EReal) ?_
  funext a; apply Fin.ext
  match a with
  | ⟨0, _⟩ => show win1_3.index t (0 : Fin 2) * 64 + 1 * (y 0).val = (y 0).val; rw [e6]; omega
  | ⟨1, _⟩ => show win1_3.index t (1 : Fin 2) * 64 + 1 * (y 1).val = (y 1).val; rw [e7]; omega

/-- Where the output's block at point t sits in the array. -/
theorem emb1_4 (t : Fin cfg1.N) (r : Fin 200) (q : Fin 64) :
    (((cfg1.win 4).blk t).view.emb (ix2 r q) : S10000x64.Idx) = ix2 (rowAt1 t r) q := by
  obtain ⟨-, -, -, -, -, -, -, -, e8, e9⟩ := idx_facts1 t
  funext a; apply Fin.ext
  match a with
  | ⟨0, _⟩ => show win1_4.index t (0 : Fin 2) * 200 + 1 * r.val = 200 * t.val + r.val; rw [e8]; omega
  | ⟨1, _⟩ => show win1_4.index t (1 : Fin 2) * 64 + 1 * q.val = q.val; rw [e9]; omega

/-- Layer one with its epilogue on whole arrays: relu(adj · s + b) · W2, the bias given as a one-row array. -/
def layer1 (adj : Cert.Gcn.Mat 10000 10000) (s : Cert.Gcn.Mat 10000 64) (b : Cert.Gcn.Mat 1 64) (w2 : Cert.Gcn.Mat 64 64) :
    Cert.Gcn.Mat 10000 64 :=
  Cert.Gcn.mm (Cert.Gcn.relu (Cert.Gcn.addBias (Cert.Gcn.mm adj s) fun q => b (ix2 (0 : Fin 1) q))) w2

/-- What point t writes back is block t of layer one of the arrays the call found. -/
theorem flushed1_eq (c : Dev nD) (t : Fin cfg1.N) :
    (dat1 V c).flushed 4 t = ((cfg1.win 4).blk t).view.read (Elt Ideal)
      (layer1 (V c main_arg1) (V c main_v2) (V c main_v0) (V c main_arg4)) := by
  show (cfg1.win 4).cut (grid1.coords t) ((dat1 V c).after 4 t) = _
  rw [after1_4]
  unfold out1_4
  rw [View.canon_unit_zero hz1]
  simp only [View.ld_unit_zero (S := S200x10000) hz1, View.ld_unit_zero (S := S10000x64) hz1,
    View.ld_unit_zero (S := S1x64) hz1, View.ld_unit_zero (S := S64x64) hz1]
  funext y
  obtain ⟨r, q, rfl⟩ : ∃ (r : Fin 200) (q : Fin 64), y = ix2 r q := ⟨y 0, y 1, eq_ix2 y⟩
  show k1_pay1 (F := Ideal) (iblk1 V c 0 t) (iblk1 V c 1 t) (iblk1 V c 2 t) (iblk1 V c 3 t) (ix2 r q)
    = layer1 (V c main_arg1) (V c main_v2) (V c main_v0) (V c main_arg4) (((cfg1.win 4).blk t).view.emb (ix2 r q))
  rw [emb1_4 t r q]
  refine (pay1_apply _ _ _ _ r q).trans ?_
  rw [blk1_1_eq V c t, blk1_2_eq V c t, blk1_3_eq V c t]
  unfold layer1
  refine Cert.Gcn.mm_row_congr _ r (rowAt1 t r) (fun k => ?_) q
  refine Cert.Gcn.relu_row_congr r _ k ?_
  refine Cert.Gcn.addBias_row_congr _ r _ k ?_
  exact Cert.Gcn.mm_row_congr _ r (rowAt1 t r) (fun j => blk1_0_apply V c t r j) k

/-- An index of the output array is in point t's block iff each coordinate is in the block's range on its axis. -/
theorem mem_blk1 (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_v3).slice (win1_4.rect t)).set ↔ _
  rw [View.set_slice_whole, Rect.mem_set_unit]
  exact Iff.rfl

/-- Every index of the output array lies in some point's block: row i in block i / 200. -/
theorem cover1 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ : ∃ t : Fin cfg1.N, t.val = (i 0).val / 200 := ⟨⟨(i 0).val / 200, by rw [show cfg1.N = 50 from N_1]; omega⟩, rfl⟩
  obtain ⟨-, -, -, -, -, -, -, -, e8, e9⟩ := idx_facts1 t
  refine ⟨t, flush1_4 t, ?_⟩
  rw [mem_blk1]
  intro a
  match a with
  | ⟨0, _⟩ => show win1_4.index t (0 : Fin 2) * 200 ≤ (i 0).val ∧ (i 0).val < win1_4.index t (0 : Fin 2) * 200 + 200; rw [e8, ht]; omega
  | ⟨1, _⟩ => show win1_4.index t (1 : Fin 2) * 64 ≤ (i 1).val ∧ (i 1).val < win1_4.index t (1 : Fin 2) * 64 + 64; rw [e9]; omega

/-- After the second call the output array is layer one of the arrays found in its four operands. -/
theorem final1 (c : Dev nD) : (dat1 V c).arrAt 4 cfg1.N = layer1 (V c main_arg1) (V c main_v2) (V c main_v0) (V c main_arg4) :=
  (dat1 V c).arrAt_eq_of_cover 4 _ (fun t _ => flushed1_eq V c t) cover1

end Cert.KernelIdeal.Hand

end
-- ==== Proof.K2.lean ====
/- The third pallas_call: layer two with the row-wise log-softmax, 200 adjacency rows per grid point.

   At grid point t the body takes rows 200t … 200t + 199 of the adjacency matrix, the whole of the second call's array
   and the bias row, forms the block's logits rows · array + bias, and stores each row's log-softmax (the log-sum-exp
   subtracted at once) as the output's block t. Row r of that block depends on row 200t + r of the adjacency matrix only
   — the maximum and the exponential sum are taken along the row —, so the block is rows 200t … 200t + 199 of the
   log-softmax of the whole logits. The fifty blocks tile the 10000 rows (row i lies in block i / 200). -/
import proofs.«149217_g27290222198914_cont_9to1_1311_3_alg».proof.Proof.Gen.KernelIdeal.Frame
import proofs.«149217_g27290222198914_cont_9to1_1311_3_alg».proof.Proof.Spec
import proofs.«149217_g27290222198914_cont_9to1_1311_3_alg».proof.Proof.SpecRows
import proofs.«149217_g27290222198914_cont_9to1_1311_3_alg».proof.Proof.KPay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the adjacency operand's and the output's row block is the point's number,
    every other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt2 (t : Fin cfg2.N) : t.val < 50 := lt_of_lt_of_eq t.isLt N_2

/-- Row r of point t's block is row 200t + r of the array. -/
abbrev rowAt2 (t : Fin cfg2.N) (r : Fin 200) : Fin 10000 := ⟨200 * t.val + r.val, by have := t_lt2 t; have := r.isLt; omega⟩

/-- The adjacency operand's block at point t, read at (r, j). -/
theorem blk2_0_apply (c : Dev nD) (t : Fin cfg2.N) (r : Fin 200) (j : Fin 10000) :
    (iblk2 V c 0 t : Vec Ideal S200x10000 .f32) (ix2 r j) = (V c main_arg1 : S10000x10000.Idx → EReal) (ix2 (rowAt2 t r) j) := by
  obtain ⟨e0, e1, -⟩ := idx_facts2 t
  show (V c main_arg1 : S10000x10000.Idx → EReal) (((cfg2.win 0).blk t).view.emb (ix2 r j)) = _
  refine congrArg (V c main_arg1 : S10000x10000.Idx → EReal) ?_
  funext a; apply Fin.ext
  match a with
  | ⟨0, _⟩ => show win2_0.index t (0 : Fin 2) * 200 + 1 * r.val = 200 * t.val + r.val; rw [e0]; omega
  | ⟨1, _⟩ => show win2_0.index t (1 : Fin 2) * 10000 + 1 * j.val = j.val; rw [e1]; omega

/-- The other two operands' blocks are their whole arrays. -/
theorem blk2_1_eq (c : Dev nD) (t : Fin cfg2.N) :
    (iblk2 V c 1 t : Vec Ideal S10000x64 .f32) = (V c main_v3 : S10000x64.Idx → EReal) := by
  obtain ⟨-, -, e2, e3, -⟩ := idx_facts2 t
  funext y
  show (V c main_v3 : S10000x64.Idx → EReal) (((cfg2.win 1).blk t).view.emb y) = _
  refine congrArg (V c main_v3 : S10000x64.Idx → EReal) ?_
  funext a; apply Fin.ext
  match a with
  | ⟨0, _⟩ => show win2_1.index t (0 : Fin 2) * 10000 + 1 * (y 0).val = (y 0).val; rw [e2]; omega
  | ⟨1, _⟩ => show win2_1.index t (1 : Fin 2) * 64 + 1 * (y 1).val = (y 1).val; rw [e3]; omega
theorem blk2_2_eq (c : Dev nD) (t : Fin cfg2.N) :
    (iblk2 V c 2 t : Vec Ideal S1x64 .f32) = (V c main_v1 : S1x64.Idx → EReal) := by
  obtain ⟨-, -, -, -, e4, e5, -⟩ := idx_facts2 t
  funext y
  show (V c main_v1 : S1x64.Idx → EReal) (((cfg2.win 2).blk t).view.emb y) = _
  refine congrArg (V c main_v1 : S1x64.Idx → EReal) ?_
  funext a; apply Fin.ext
  match a with
  | ⟨0, _⟩ => show win2_2.index t (0 : Fin 2) * 1 + 1 * (y 0).val = (y 0).val; rw [e4]; omega
  | ⟨1, _⟩ => show win2_2.index t (1 : Fin 2) * 64 + 1 * (y 1).val = (y 1).val; rw [e5]; omega

/-- Where the output's block at point t sits in the array. -/
theorem emb2_3 (t : Fin cfg2.N) (r : Fin 200) (q : Fin 64) :
    (((cfg2.win 3).blk t).view.emb (ix2 r q) : S10000x64.Idx) = ix2 (rowAt2 t r) q := by
  obtain ⟨-, -, -, -, -, -, e6, e7⟩ := idx_facts2 t
  funext a; apply Fin.ext
  match a with
  | ⟨0, _⟩ => show win2_3.index t (0 : Fin 2) * 200 + 1 * r.val = 200 * t.val + r.val; rw [e6]; omega
  | ⟨1, _⟩ => show win2_3.index t (1 : Fin 2) * 64 + 1 * q.val = q.val; rw [e7]; omega

/-- Layer two with its log-softmax on whole arrays: the log-softmax (log-sum-exp subtracted at once) of adj · s + b,
    the bias given as a one-row array. -/
def layer2 (adj : Cert.Gcn.Mat 10000 10000) (s : Cert.Gcn.Mat 10000 64) (b : Cert.Gcn.Mat 1 64) : Cert.Gcn.Mat 10000 64 :=
  Cert.Gcn.lsmLse (Cert.Gcn.addBias (Cert.Gcn.mm adj s) fun q => b (ix2 (0 : Fin 1) q))

/-- What point t writes back is block t of layer two of the arrays the call found. -/
theorem flushed2_eq (c : Dev nD) (t : Fin cfg2.N) :
    (dat2 V c).flushed 3 t = ((cfg2.win 3).blk t).view.read (Elt Ideal)
      (layer2 (V c main_arg1) (V c main_v3) (V c main_v1)) := by
  show (cfg2.win 3).cut (grid2.coords t) ((dat2 V c).after 3 t) = _
  rw [after2_3]
  unfold out2_3
  rw [View.canon_unit_zero hz2]
  simp only [View.ld_unit_zero (S := S200x10000) hz2, View.ld_unit_zero (S := S10000x64) hz2,
    View.ld_unit_zero (S := S1x64) hz2]
  funext y
  obtain ⟨r, q, rfl⟩ : ∃ (r : Fin 200) (q : Fin 64), y = ix2 r q := ⟨y 0, y 1, eq_ix2 y⟩
  show k2_pay1 (F := Ideal) (iblk2 V c 0 t) (iblk2 V c 1 t) (iblk2 V c 2 t) (ix2 r q)
    = layer2 (V c main_arg1) (V c main_v3) (V c main_v1) (((cfg2.win 3).blk t).view.emb (ix2 r q))
  rw [emb2_3 t r q]
  refine (pay2_apply _ _ _ r q).trans ?_
  rw [blk2_1_eq V c t, blk2_2_eq V c t]
  unfold layer2
  refine Cert.Gcn.lsmLse_row_congr r (rowAt2 t r) (fun k => ?_) q
  refine Cert.Gcn.addBias_row_congr _ r _ k ?_
  exact Cert.Gcn.mm_row_congr _ r (rowAt2 t r) (fun j => blk2_0_apply V c t r j) k

/-- An index of the output array is in point t's block iff each coordinate is in the block's range on its axis. -/
theorem mem_blk2 (t : Fin cfg2.N) (i : S10000x64.Idx) :
    i ∈ ((cfg2.win 3).blk t).view.set ↔ ∀ a : Fin 2, win2_3.index t a * S200x64.size a ≤ (i a).val ∧ (i a).val < win2_3.index t a * S200x64.size a + S200x64.size a := by
  show i ∈ ((View.whole main_v4).slice (win2_3.rect t)).set ↔ _
  rw [View.set_slice_whole, Rect.mem_set_unit]
  exact Iff.rfl

/-- Every index of the output array lies in some point's block: row i in block i / 200. -/
theorem cover2 (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  obtain ⟨t, ht⟩ : ∃ t : Fin cfg2.N, t.val = (i 0).val / 200 := ⟨⟨(i 0).val / 200, by rw [show cfg2.N = 50 from N_2]; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 200 ≤ (i 0).val ∧ (i 0).val < win2_3.index t (0 : Fin 2) * 200 + 200; rw [e6, ht]; omega
  | ⟨1, _⟩ => show win2_3.index t (1 : Fin 2) * 64 ≤ (i 1).val ∧ (i 1).val < win2_3.index t (1 : Fin 2) * 64 + 64; rw [e7]; omega

/-- After the third call the output array is layer two of the arrays found in its three operands. -/
theorem final2 (c : Dev nD) : (dat2 V c).arrAt 3 cfg2.N = layer2 (V c main_arg1) (V c main_v3) (V c main_v1) :=
  (dat2 V c).arrAt_eq_of_cover 3 _ (fun t _ => flushed2_eq V c t) cover2

end Cert.KernelIdeal.Hand

end
-- ==== Proof.KChain.lean ====
/- The three calls chained: what the result array holds after the whole program, as one function of the arguments.

   The first call finds x and W1 as launched and leaves x · W1 in its output. The second finds the adjacency matrix and
   W2 as launched, the first call's output, and the bias b1 reshaped to one row, and leaves relu(adj · (x · W1) + b1) · W2.
   The third finds the adjacency matrix, the second call's output and b2 reshaped to one row, and leaves the row-wise
   log-softmax (log-sum-exp subtracted at once) of adj · (that) + b2. No call or host operation writes an argument, and a
   call writes its own output only, so each operand is read back through the earlier segment boundaries to the array that
   produced it. -/
import proofs.«149217_g27290222198914_cont_9to1_1311_3_alg».proof.Proof.Gen.KernelIdeal.Frame
import proofs.«149217_g27290222198914_cont_9to1_1311_3_alg».proof.Proof.Spec
import proofs.«149217_g27290222198914_cont_9to1_1311_3_alg».proof.Proof.K0
import proofs.«149217_g27290222198914_cont_9to1_1311_3_alg».proof.Proof.K1
import proofs.«149217_g27290222198914_cont_9to1_1311_3_alg».proof.Proof.K2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The first call's entry: the launch memory after the two reshapes -/

theorem W1_main_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_main_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_main_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_main_arg4 (c : Dev nD) : W1 m ρ c (Proc.devRef .tc main_arg4) = m ((c : Thread nD τ).loc main_arg4) := by
  show StableHlo.after hostOps0 (W0 m ρ c) (Proc.devRef .tc main_arg4) = _
  after_results <;> rfl

/-- The first bias as the one-row array the second call reads, at column q. -/
theorem W1_main_v0_apply (c : Dev nD) (q : Fin 64) :
    (W1 m ρ c (Proc.devRef .tc main_v0) : S1x64.Idx → EReal) (ix2 (0 : Fin 1) q)
      = (m ((c : Thread nD τ).loc main_arg3) : S64.Idx → EReal) (ix1 q) := by
  have e : (W1 m ρ c (Proc.devRef .tc main_v0) : S1x64.Idx → EReal)
      = shapeCast S1x64 (m ((c : Thread nD τ).loc main_arg3) : S64.Idx → EReal) Facts₀.shapeCasts_S64_S1x64 := by
    show StableHlo.after hostOps0 (W0 m ρ c) (Proc.devRef .tc main_v0) = _
    after_results <;> rfl
  rw [e]
  exact shapeCast_a_1a_apply _ _ 0 q

/-- The second bias as the one-row array the third call reads, at column q. -/
theorem W1_main_v1_apply (c : Dev nD) (q : Fin 64) :
    (W1 m ρ c (Proc.devRef .tc main_v1) : S1x64.Idx → EReal) (ix2 (0 : Fin 1) q)
      = (m ((c : Thread nD τ).loc main_arg5) : S64.Idx → EReal) (ix1 q) := by
  have e : (W1 m ρ c (Proc.devRef .tc main_v1) : S1x64.Idx → EReal)
      = shapeCast S1x64 (m ((c : Thread nD τ).loc main_arg5) : S64.Idx → EReal) Facts₀.shapeCasts_S64_S1x64 := by
    show StableHlo.after hostOps0 (W0 m ρ c) (Proc.devRef .tc main_v1) = _
    after_results <;> rfl
  rw [e]
  exact shapeCast_a_1a_apply _ _ 0 q

/-! ## The second call's entry -/

/-- The first call's output as the second call finds it: x · W1. -/
theorem V2_main_v2 (c : Dev nD) :
    (V2 m ρ c main_v2 : S10000x64.Idx → EReal)
      = Cert.Gcn.mm (m ((c : Thread nD τ).loc main_arg0)) (m ((c : Thread nD τ).loc main_arg2)) := by
  show W2 m ρ c (Proc.devRef .tc (Pipeline.arrRef spec0 2)) = _
  rw [W2_arr m ρ c 2, final0 (V1 m ρ) c]
  show Cert.Gcn.mm (W1 m ρ c (Proc.devRef .tc main_arg0)) (W1 m ρ c (Proc.devRef .tc main_arg2)) = _
  rw [W1_main_arg0, W1_main_arg2]

theorem V2_main_arg1 (c : Dev nD) : (V2 m ρ c main_arg1 : S10000x10000.Idx → EReal) = m ((c : Thread nD τ).loc main_arg1) :=
  (W2_of_ne m ρ c main_arg1 (by decide)).trans (W1_main_arg1 m ρ c)
theorem V2_main_arg4 (c : Dev nD) : (V2 m ρ c main_arg4 : S64x64.Idx → EReal) = m ((c : Thread nD τ).loc main_arg4) :=
  (W2_of_ne m ρ c main_arg4 (by decide)).trans (W1_main_arg4 m ρ c)
theorem V2_main_v0 (c : Dev nD) : (V2 m ρ c main_v0 : S1x64.Idx → EReal) = W1 m ρ c (Proc.devRef .tc main_v0) :=
  W2_of_ne m ρ c main_v0 (by decide)

/-! ## The third call's entry -/

theorem V3_main_arg1 (c : Dev nD) : (V3 m ρ c main_arg1 : S10000x10000.Idx → EReal) = m ((c : Thread nD τ).loc main_arg1) :=
  ((W3_arr m ρ c 0).trans (((dat1 (V2 m ρ) c).arrAt_in 0 rfl _).trans (A_eq1 (V2 m ρ) c 0))).trans (V2_main_arg1 m ρ c)
theorem V3_main_v1 (c : Dev nD) : (V3 m ρ c main_v1 : S1x64.Idx → EReal) = W1 m ρ c (Proc.devRef .tc main_v1) :=
  (W3_of_ne m ρ c main_v1 (by decide)).trans (W2_of_ne m ρ c main_v1 (by decide))

/-- The second call's output as the third call finds it. -/
theorem V3_main_v3 (c : Dev nD) :
    (V3 m ρ c main_v3 : S10000x64.Idx → EReal)
      = layer1 (m ((c : Thread nD τ).loc main_arg1))
          (Cert.Gcn.mm (m ((c : Thread nD τ).loc main_arg0)) (m ((c : Thread nD τ).loc main_arg2)))
          (W1 m ρ c (Proc.devRef .tc main_v0)) (m ((c : Thread nD τ).loc main_arg4)) := by
  show W3 m ρ c (Proc.devRef .tc (Pipeline.arrRef spec1 4)) = _
  rw [W3_arr m ρ c 4, final1 (V2 m ρ) c, V2_main_arg1, V2_main_v2, V2_main_v0, V2_main_arg4]

/-! ## The result -/

/-- The result array after the whole program: the log-softmax, log-sum-exp subtracted at once, of the logits. -/
theorem result_eq (c : Dev nD) :
    (W4 m ρ c (Proc.devRef .tc main_v4) : S10000x64.Idx → EReal)
      = Cert.Gcn.lsmLse (Cert.Gcn.logits (m ((c : Thread nD τ).loc main_arg0)) (m ((c : Thread nD τ).loc main_arg1))
          (m ((c : Thread nD τ).loc main_arg2)) (fun q => (m ((c : Thread nD τ).loc main_arg3) : S64.Idx → EReal) (ix1 q))
          (m ((c : Thread nD τ).loc main_arg4)) (fun q => (m ((c : Thread nD τ).loc main_arg5) : S64.Idx → EReal) (ix1 q))) := by
  show W4 m ρ c (Proc.devRef .tc (Pipeline.arrRef spec2 3)) = _
  rw [W4_arr m ρ c 3, final2 (V3 m ρ) c, V3_main_arg1, V3_main_v3, V3_main_v1]
  unfold layer2 layer1 Cert.Gcn.logits
  rw [show (fun q => (W1 m ρ c (Proc.devRef .tc main_v0) : S1x64.Idx → EReal) (ix2 (0 : Fin 1) q))
        = fun q => (m ((c : Thread nD τ).loc main_arg3) : S64.Idx → EReal) (ix1 q) from funext (W1_main_v0_apply m ρ c),
    show (fun q => (W1 m ρ c (Proc.devRef .tc main_v1) : S1x64.Idx → EReal) (ix2 (0 : Fin 1) q))
        = fun q => (m ((c : Thread nD τ).loc main_arg5) : S64.Idx → EReal) (ix1 q) from funext (W1_main_v1_apply m ρ c)]

end Cert.KernelIdeal.Hand

end
-- ==== Proof.lean ====
/- The certificate of a two-layer graph convolution with a row-wise log-softmax, as three pallas_calls against the jnp
   reference: out = log_softmax(adj · (relu(adj · (x · W1) + b1) · W2) + b2).

   On the extended reals both programs compute the same logits z = adj · (relu(adj · (x · W1) + b1) · W2) + b2: the
   kernel's matrix products are the reference's, entry by entry one finite sum over the contraction index each, whatever
   the tiling into row blocks, and the kernel's rounding of the adjacency operands on the way into a product is the
   identity here. They differ in how the log-softmax is arranged: with M the row maximum and S the row sum of
   exp(z − M), the kernel stores z − (log S + M) and the reference (z − M) − log S. On the extended reals these agree
   where z and M are real numbers, and could differ at an infinite logit, so this is where the precondition is used:
   finite inputs give real logits (a finite sum of products of reals is real), and a row maximum of real entries is one
   of them.

   The kernel program's result: Proof/K0, K1, K2 read each call's output array as a function of the arrays the call
   found (a block is the function restricted to its rows; the blocks tile the rows), Proof/KChain chains the three calls
   back to the arguments, Proof/KRun is the run that names the result. The reference's result: Proof/RefRun (its run),
   Proof/RefRead (its stages read at an index), Proof/RefValue (the stages are the specification's function).
   Proof/Spec and Proof/SpecRows hold the specification and the law between the two arrangements; Proof/Finite reads the
   precondition as "every entry is a real number". -/
import proofs.«149217_g27290222198914_cont_9to1_1311_3_alg».proof.Defs
import proofs.«149217_g27290222198914_cont_9to1_1311_3_alg».proof.Proof.Gen.Kernel
import proofs.«149217_g27290222198914_cont_9to1_1311_3_alg».proof.Proof.Gen.Kernel.Skeleton
import proofs.«149217_g27290222198914_cont_9to1_1311_3_alg».proof.Proof.Gen.Kernel.Launch
import proofs.«149217_g27290222198914_cont_9to1_1311_3_alg».proof.Proof.Gen.Kernel.Points
import proofs.«149217_g27290222198914_cont_9to1_1311_3_alg».proof.Proof.Gen.Kernel.Frame
import proofs.«149217_g27290222198914_cont_9to1_1311_3_alg».proof.Proof.Gen.KernelIdeal
import proofs.«149217_g27290222198914_cont_9to1_1311_3_alg».proof.Proof.Gen.KernelIdeal.Skeleton
import proofs.«149217_g27290222198914_cont_9to1_1311_3_alg».proof.Proof.Gen.KernelIdeal.Launch
import proofs.«149217_g27290222198914_cont_9to1_1311_3_alg».proof.Proof.Gen.KernelIdeal.Points
import proofs.«149217_g27290222198914_cont_9to1_1311_3_alg».proof.Proof.Gen.KernelIdeal.Frame
import proofs.«149217_g27290222198914_cont_9to1_1311_3_alg».proof.Proof.Gen.ReferenceIdeal
import proofs.«149217_g27290222198914_cont_9to1_1311_3_alg».proof.Proof.Gen.Pre_finite_inputs
import proofs.«149217_g27290222198914_cont_9to1_1311_3_alg».proof.Proof.RefRun
import proofs.«149217_g27290222198914_cont_9to1_1311_3_alg».proof.Proof.RefRead
import proofs.«149217_g27290222198914_cont_9to1_1311_3_alg».proof.Proof.RefValue
import proofs.«149217_g27290222198914_cont_9to1_1311_3_alg».proof.Proof.Spec
import proofs.«149217_g27290222198914_cont_9to1_1311_3_alg».proof.Proof.Finite
import proofs.«149217_g27290222198914_cont_9to1_1311_3_alg».proof.Proof.KRun
import proofs.«149217_g27290222198914_cont_9to1_1311_3_alg».proof.Proof.KChain
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the network's output gcn(x, adj, W1, b1, W2, b2) in their result arrays: the kernel's three
    calls leave the log-softmax with the log-sum-exp subtracted at once, which on real logits is the reference's. -/
theorem algebraic : Cert.algebraic_KernelIdeal_ReferenceIdeal := by
  intro m ρ m' ρ' hpre hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun q => (m ((c.tc : Thread Cert.KernelIdeal.nD Cert.KernelIdeal.τ).loc Cert.KernelIdeal.main_arg3) : Cert.KernelIdeal.S64.Idx → EReal) (ix1 q))
      (m ((c.tc : Thread Cert.KernelIdeal.nD Cert.KernelIdeal.τ).loc Cert.KernelIdeal.main_arg4))
      (fun q => (m ((c.tc : Thread Cert.KernelIdeal.nD Cert.KernelIdeal.τ).loc Cert.KernelIdeal.main_arg5) : Cert.KernelIdeal.S64.Idx → EReal) (ix1 q)), ?_, ?_⟩
  · refine (θ_run Cert.KernelIdeal.defs _ _).mono (fun r h c => ⟨(h c).1.trans ?_, (h c).2⟩) (Cert.KernelIdeal.Hand.run_result (F := Ideal) m ρ)
    obtain ⟨h0, h1, h2, h3, h4, h5⟩ := Cert.Gcn.Finite.real_of_pre _ _ _ _ _ _ (hpre c)
    refine (Cert.KernelIdeal.Hand.result_eq m ρ c).trans ?_
    exact Cert.Gcn.lsm_eq (by decide) (Cert.Gcn.logits_real h0 h1 h2 (fun q => h3 (ix1 q)) h4 (fun q => h5 (ix1 q)))
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v11_eq, Cert.Gcn.Ref.ref_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
